-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x4096x128 : Shape := ⟨4, ![4, 32, 4096, 128]⟩
abbrev S4x32x16x128 : Shape := ⟨4, ![4, 32, 16, 128]⟩
abbrev S_ : Shape := ⟨0, ![]⟩

class Facts : Prop where
  bcast_S_S4x32x4096x128 : S_.BroadcastsInDim S4x32x4096x128 (![] : Fin 0 → Fin S4x32x4096x128.rank)
  reducesTo_S4x32x4096x128_S_d0_1_2_3 : S4x32x4096x128.ReducesTo [0, 1, 2, 3] S_
  h_S_ : 0 < S_.numel
  bcast_S_S4x32x16x128 : S_.BroadcastsInDim S4x32x16x128 (![] : Fin 0 → Fin S4x32x16x128.rank)
  reducesTo_S4x32x16x128_S_d0_1_2_3 : S4x32x16x128.ReducesTo [0, 1, 2, 3] S_

variable [Facts]

def fn_part1 {F : FTy → Type} [FloatOps F] (main_v13 : IVec S_ 1) (main_v16 : IVec S4x32x16x128 1) : IVec S_ 1 :=
  let main_c_5 : IVec S_ 1 := constantI S_ 1 1#1
  let main_v17 : IVec S_ 1 := (fun x v => Host.reduce IntOp.andi x v reducesTo_S4x32x16x128_S_d0_1_2_3 h_S_) main_v16 main_c_5
  let main_v18 : IVec S_ 1 := andi main_v13 main_v17
  main_v18

def fn {F : FTy → Type} [FloatOps F] (main_arg0 : FVec F S4x32x4096x128 .f32) (main_arg1 : FVec F S4x32x4096x128 .f32) (main_arg2 : FVec F S4x32x16x128 .f32) (main_arg3 : FVec F S4x32x16x128 .f32) : IVec S_ 1 :=
  let main_v0 : FVec F S4x32x4096x128 .f32 := Host.absf main_arg0
  let main_cst : FVec F S_ .f32 := constant S_ .f32 0x7F800000#32
  let main_v1 : FVec F S4x32x4096x128 .f32 := broadcastInDim S4x32x4096x128 ![] bcast_S_S4x32x4096x128 main_cst
  let main_v2 : IVec S4x32x4096x128 1 := cmpf .olt main_v0 main_v1
  let main_c : IVec S_ 1 := constantI S_ 1 1#1
  let main_v3 : IVec S_ 1 := (fun x v => Host.reduce IntOp.andi x v reducesTo_S4x32x4096x128_S_d0_1_2_3 h_S_) main_v2 main_c
  let main_v4 : FVec F S4x32x4096x128 .f32 := Host.absf main_arg1
  let main_cst_0 : FVec F S_ .f32 := constant S_ .f32 0x7F800000#32
  let main_v5 : FVec F S4x32x4096x128 .f32 := broadcastInDim S4x32x4096x128 ![] bcast_S_S4x32x4096x128 main_cst_0
  let main_v6 : IVec S4x32x4096x128 1 := cmpf .olt main_v4 main_v5
  let main_c_1 : IVec S_ 1 := constantI S_ 1 1#1
  let main_v7 : IVec S_ 1 := (fun x v => Host.reduce IntOp.andi x v reducesTo_S4x32x4096x128_S_d0_1_2_3 h_S_) main_v6 main_c_1
  let main_v8 : IVec S_ 1 := andi main_v3 main_v7
  let main_v9 : FVec F S4x32x16x128 .f32 := Host.absf main_arg2
  let main_cst_2 : FVec F S_ .f32 := constant S_ .f32 0x7F800000#32
  let main_v10 : FVec F S4x32x16x128 .f32 := broadcastInDim S4x32x16x128 ![] bcast_S_S4x32x16x128 main_cst_2
  let main_v11 : IVec S4x32x16x128 1 := cmpf .olt main_v9 main_v10
  let main_c_3 : IVec S_ 1 := constantI S_ 1 1#1
  let main_v12 : IVec S_ 1 := (fun x v => Host.reduce IntOp.andi x v reducesTo_S4x32x16x128_S_d0_1_2_3 h_S_) main_v11 main_c_3
  let main_v13 : IVec S_ 1 := andi main_v8 main_v12
  let main_v14 : FVec F S4x32x16x128 .f32 := Host.absf main_arg3
  let main_cst_4 : FVec F S_ .f32 := constant S_ .f32 0x7F800000#32
  let main_v15 : FVec F S4x32x16x128 .f32 := broadcastInDim S4x32x16x128 ![] bcast_S_S4x32x16x128 main_cst_4
  let main_v16 : IVec S4x32x16x128 1 := cmpf .olt main_v14 main_v15
  fn_part1 (F := F) main_v13 main_v16
-- ==== Kernel.lean ====
abbrev S4x32x4096x128 : Shape := ⟨4, ![4, 32, 4096, 128]⟩
abbrev S4x32x16x128 : Shape := ⟨4, ![4, 32, 16, 128]⟩
abbrev S4x32x4112x128 : Shape := ⟨4, ![4, 32, 4112, 128]⟩
abbrev S1x1x4096x128 : Shape := ⟨4, ![1, 1, 4096, 128]⟩
abbrev S1x1x16x128 : Shape := ⟨4, ![1, 1, 16, 128]⟩
abbrev S1x1x4112x128 : Shape := ⟨4, ![1, 1, 4112, 128]⟩

abbrev nBuf : Space → Nat
  | .hbm => 6
  | .vmem => 12
  | .smem => 0
  | _ => 0

abbrev bufTy : (tb : Table) → Fin (tcTables nBuf tb) → BufTy
  | .hbm, ⟨0, _⟩ => ⟨S4x32x4096x128, .f32⟩
  | .hbm, ⟨1, _⟩ => ⟨S4x32x4096x128, .f32⟩
  | .hbm, ⟨2, _⟩ => ⟨S4x32x16x128, .f32⟩
  | .hbm, ⟨3, _⟩ => ⟨S4x32x16x128, .f32⟩
  | .hbm, ⟨4, _⟩ => ⟨S4x32x4112x128, .f32⟩
  | .hbm, ⟨5, _⟩ => ⟨S4x32x4112x128, .f32⟩
  | .local _ .vmem, ⟨0, _⟩ => ⟨S1x1x4096x128, .f32⟩
  | .local _ .vmem, ⟨1, _⟩ => ⟨S1x1x4096x128, .f32⟩
  | .local _ .vmem, ⟨2, _⟩ => ⟨S1x1x16x128, .f32⟩
  | .local _ .vmem, ⟨3, _⟩ => ⟨S1x1x16x128, .f32⟩
  | .local _ .vmem, ⟨4, _⟩ => ⟨S1x1x4096x128, .f32⟩
  | .local _ .vmem, ⟨5, _⟩ => ⟨S1x1x4096x128, .f32⟩
  | .local _ .vmem, ⟨6, _⟩ => ⟨S1x1x16x128, .f32⟩
  | .local _ .vmem, ⟨7, _⟩ => ⟨S1x1x16x128, .f32⟩
  | .local _ .vmem, ⟨8, _⟩ => ⟨S1x1x4112x128, .f32⟩
  | .local _ .vmem, ⟨9, _⟩ => ⟨S1x1x4112x128, .f32⟩
  | .local _ .vmem, ⟨10, _⟩ => ⟨S1x1x4112x128, .f32⟩
  | .local _ .vmem, ⟨11, _⟩ => ⟨S1x1x4112x128, .f32⟩
  | _, _ => ⟨S4x32x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4112x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4112x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x1x4096x128_S1x1x4096x128_0_0_0_0 : ∀ a, (![0, 0, 0, 0] : Fin 4 → Nat) a + S1x1x4096x128.size a ≤ S1x1x4096x128.size a
  h_S1x1x4096x128 : 0 < S1x1x4096x128.numel
  inb_S1x1x4112x128_S1x1x4096x128_0_0_0_0 : ∀ a, (![0, 0, 0, 0] : Fin 4 → Nat) a + S1x1x4096x128.size a ≤ S1x1x4112x128.size a
  inb_S1x1x16x128_S1x1x16x128_0_0_0_0 : ∀ a, (![0, 0, 0, 0] : Fin 4 → Nat) a + S1x1x16x128.size a ≤ S1x1x16x128.size a
  h_S1x1x16x128 : 0 < S1x1x16x128.numel
  inb_S1x1x4112x128_S1x1x16x128_0_0_4096_0 : ∀ a, (![0, 0, 4096, 0] : Fin 4 → Nat) a + S1x1x16x128.size a ≤ S1x1x4112x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4096x128.size a ≤ S4x32x4096x128.size a
  hwx0_0 : ∀ i : grid0.Coords, EltTy.bits .f32 = 32 ∨ (Rect.block (s := S4x32x4096x128) S1x1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x16x128.size a ≤ S4x32x16x128.size a
  hwx0_1 : ∀ i : grid0.Coords, EltTy.bits .f32 = 32 ∨ (Rect.block (s := S4x32x16x128) S1x1x16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096x128.size a ≤ S4x32x4096x128.size a
  hwx0_2 : ∀ i : grid0.Coords, EltTy.bits .f32 = 32 ∨ (Rect.block (s := S4x32x4096x128) S1x1x4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x16x128.size a ≤ S4x32x16x128.size a
  hwx0_3 : ∀ i : grid0.Coords, EltTy.bits .f32 = 32 ∨ (Rect.block (s := S4x32x16x128) S1x1x16x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x4112x128.size a ≤ S4x32x4112x128.size a
  hwx0_4 : ∀ i : grid0.Coords, EltTy.bits .f32 = 32 ∨ (Rect.block (s := S4x32x4112x128) S1x1x4112x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x4112x128.size a ≤ S4x32x4112x128.size a
  hwx0_5 : ∀ i : grid0.Coords, EltTy.bits .f32 = 32 ∨ (Rect.block (s := S4x32x4112x128) S1x1x4112x128.size (cc0_transform_5 i) (hinb0_5 i)).WholeWords (EltTy.packing .f32)

variable [Facts₀]

abbrev win0_0 : Pipeline.Window sig grid0 :=
  Pipeline.Window.ofSpec (Memref.whole main_arg0) S1x1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1x16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1x4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x16x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x4112x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x4112x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x32x4096x128 : Shape := ⟨4, ![4, 32, 4096, 128]⟩
abbrev S4x32x16x128 : Shape := ⟨4, ![4, 32, 16, 128]⟩
abbrev S4x32x4112x128 : Shape := ⟨4, ![4, 32, 4112, 128]⟩

abbrev nBuf : Space → Nat
  | .hbm => 6
  | .vmem => 0
  | .smem => 0
  | _ => 0

abbrev bufTy : (tb : Table) → Fin (tcTables nBuf tb) → BufTy
  | .hbm, ⟨0, _⟩ => ⟨S4x32x4096x128, .f32⟩
  | .hbm, ⟨1, _⟩ => ⟨S4x32x4096x128, .f32⟩
  | .hbm, ⟨2, _⟩ => ⟨S4x32x16x128, .f32⟩
  | .hbm, ⟨3, _⟩ => ⟨S4x32x16x128, .f32⟩
  | .hbm, ⟨4, _⟩ => ⟨S4x32x4112x128, .f32⟩
  | .hbm, ⟨5, _⟩ => ⟨S4x32x4112x128, .f32⟩
  | _, _ => ⟨S4x32x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩

abbrev nD : Nat := 1
abbrev τ : Topo := Topo.v7x

variable {F : FTy → Type} [FloatOps F]

class Facts₀ : Prop where
  concatenates_S4x32x4096x128_S4x32x16x128_S4x32x4112x128_d2 : Shape.Concatenates [S4x32x4096x128, S4x32x16x128] S4x32x4112x128 2

variable [Facts₀]

class Facts : Prop extends Facts₀ where

variable [Facts]
-- ==== Proof.Append.lean ====
/-
  Appending new rows to a cache along the sequence axis, as ONE function of the two arrays, index by index.

  A cache of shape [B, H, 4096, 128] and a chunk of new rows of shape [B, H, 16, 128] give the array of shape
  [B, H, 4112, 128] whose row `r` of head `(b, h)` is the cache's row `r` when `r < 4096` and the chunk's row
  `r - 4096` otherwise; the batch, head and lane coordinates pass through unchanged. The batch and head extents
  are left general, so that the same function describes one head's block ([1, 1, …]) and the whole arrays
  ([4, 32, …]).

  Two ways of reading it: at an index whose row lies in the cache it is the cache at the index with the same
  coordinates; at an index whose row lies past the cache it is the chunk at the index whose row is 4096 less.
  The two-piece concatenation along axis 2 is this function.
-/
import Idealize.ShloMosaic.Lib.Pipeline.Value
import Idealize.ShloMosaic.Lib.ValueIdx

noncomputable section

namespace Cert.Append

open Idealize.ShloMosaic Idealize.ShloMosaic.ValueIdx

variable {α : Type} {B H : Nat}

/-- The cache's shape, the chunk's and the appended array's, for `B` batches of `H` heads. -/
abbrev SPast (B H : Nat) : Shape := ⟨4, ![B, H, 4096, 128]⟩
abbrev SNew (B H : Nat) : Shape := ⟨4, ![B, H, 16, 128]⟩
abbrev SAll (B H : Nat) : Shape := ⟨4, ![B, H, 4112, 128]⟩

/-- The cache followed by the new rows: rows 0 … 4095 are the cache's, rows 4096 … 4111 the chunk's rows 0 … 15. -/
def appendRows (past : (SPast B H).Idx → α) (new : (SNew B H).Idx → α) : (SAll B H).Idx → α := fun j =>
  if h : (j 2).val < 4096 then
    past (ix4 (⟨(j 0).val, (j 0).isLt⟩ : Fin B) (⟨(j 1).val, (j 1).isLt⟩ : Fin H) (⟨(j 2).val, h⟩ : Fin 4096)
      (⟨(j 3).val, (j 3).isLt⟩ : Fin 128))
  else
    new (ix4 (⟨(j 0).val, (j 0).isLt⟩ : Fin B) (⟨(j 1).val, (j 1).isLt⟩ : Fin H)
      (⟨(j 2).val - 4096, by have h2 : (j 2).val < 4112 := (j 2).isLt; omega⟩ : Fin 16)
      (⟨(j 3).val, (j 3).isLt⟩ : Fin 128))

/-- At a row of the cache, the appended array is the cache at the index with the same four coordinates. -/
theorem appendRows_of_lt (past : (SPast B H).Idx → α) (new : (SNew B H).Idx → α) (j : (SAll B H).Idx)
    (i : (SPast B H).Idx) (h0 : (i 0).val = (j 0).val) (h1 : (i 1).val = (j 1).val) (h2 : (i 2).val = (j 2).val)
    (h3 : (i 3).val = (j 3).val) : appendRows past new j = past i := by
  have hi : (i 2).val < 4096 := (i 2).isLt
  have h : (j 2).val < 4096 := by omega
  unfold appendRows
  rw [dif_pos h]
  refine congrArg past (funext fun a => Fin.ext ?_)
  match a with
  | ⟨0, _⟩ => exact h0.symm
  | ⟨1, _⟩ => exact h1.symm
  | ⟨2, _⟩ => exact h2.symm
  | ⟨3, _⟩ => exact h3.symm

/-- At a row past the cache, the appended array is the chunk at the index whose row is 4096 less, the other three
    coordinates the same. -/
theorem appendRows_of_ge (past : (SPast B H).Idx → α) (new : (SNew B H).Idx → α) (j : (SAll B H).Idx)
    (i : (SNew B H).Idx) (h0 : (i 0).val = (j 0).val) (h1 : (i 1).val = (j 1).val)
    (h2 : (i 2).val + 4096 = (j 2).val) (h3 : (i 3).val = (j 3).val) : appendRows past new j = new i := by
  have h : ¬ (j 2).val < 4096 := by omega
  unfold appendRows
  rw [dif_neg h]
  refine congrArg new (funext fun a => Fin.ext ?_)
  match a with
  | ⟨0, _⟩ => exact h0.symm
  | ⟨1, _⟩ => exact h1.symm
  | ⟨2, _⟩ => show (j 2).val - 4096 = (i 2).val; omega
  | ⟨3, _⟩ => exact h3.symm

/-- The concatenation of the cache and the chunk along the sequence axis (axis 2) is `appendRows`: an index whose
    row is below 4096 falls in the first piece at the same coordinates, any other in the second piece with the
    row 4096 less. -/
theorem concatenate_eq_appendRows (past : (SPast B H).Idx → α) (new : (SNew B H).Idx → α)
    (hc : Shape.Concatenates [SPast B H, SNew B H] (SAll B H) (2 : Fin 4)) :
    concatenate (SAll B H) (2 : Fin 4) [⟨SPast B H, past⟩, ⟨SNew B H, new⟩] hc = appendRows past new := by
  funext j
  by_cases h : (j 2).val < 4096
  · have e := appendRows_of_lt past new j
      (ix4 (⟨(j 0).val, (j 0).isLt⟩ : Fin B) (⟨(j 1).val, (j 1).isLt⟩ : Fin H) (⟨(j 2).val, h⟩ : Fin 4096)
        (⟨(j 3).val, (j 3).isLt⟩ : Fin 128)) rfl rfl rfl rfl
    rw [e]
    refine concatenate_pair_apply_left (2 : Fin 4) past new hc j rfl _ ?_
    intro b
    match b with
    | ⟨0, _⟩ => rfl
    | ⟨1, _⟩ => rfl
    | ⟨2, _⟩ => rfl
    | ⟨3, _⟩ => rfl
  · have h2 : (j 2).val < 4112 := (j 2).isLt
    have e := appendRows_of_ge past new j
      (ix4 (⟨(j 0).val, (j 0).isLt⟩ : Fin B) (⟨(j 1).val, (j 1).isLt⟩ : Fin H)
        (⟨(j 2).val - 4096, by omega⟩ : Fin 16) (⟨(j 3).val, (j 3).isLt⟩ : Fin 128)) rfl rfl
      (by show (j 2).val - 4096 + 4096 = (j 2).val; omega) rfl
    rw [e]
    refine concatenate_pair_apply_right (2 : Fin 4) past new hc j rfl rfl _ ?_ ?_
    · intro b hb
      match b, hb with
      | ⟨0, _⟩, _ => rfl
      | ⟨1, _⟩, _ => rfl
      | ⟨2, _⟩, hb => exact absurd rfl hb
      | ⟨3, _⟩, _ => rfl
    · show (j 2).val - 4096 + 4096 = (j 2).val; omega

/-- ONE HEAD of an appended array is that head's cache block followed by that head's new rows. Given the maps
    from one head's block indices to the arrays' indices — each puts the batch coordinate at `b`, the head coordinate
    at `h` and keeps the row and the lane —, reading the appended array through the output's map is appending the cache
    read through its map and the chunk read through its map. -/
theorem appendRows_head (past : (SPast B H).Idx → α) (new : (SNew B H).Idx → α) (b h : Nat)
    (ep : (SPast 1 1).Idx → (SPast B H).Idx) (en : (SNew 1 1).Idx → (SNew B H).Idx)
    (eo : (SAll 1 1).Idx → (SAll B H).Idx)
    (hp : ∀ x, (ep x 0).val = b ∧ (ep x 1).val = h ∧ (ep x 2).val = (x 2).val ∧ (ep x 3).val = (x 3).val)
    (hn : ∀ x, (en x 0).val = b ∧ (en x 1).val = h ∧ (en x 2).val = (x 2).val ∧ (en x 3).val = (x 3).val)
    (ho : ∀ y, (eo y 0).val = b ∧ (eo y 1).val = h ∧ (eo y 2).val = (y 2).val ∧ (eo y 3).val = (y 3).val) :
    (fun y => appendRows past new (eo y)) = appendRows (fun x => past (ep x)) (fun x => new (en x)) := by
  funext y
  show appendRows past new (eo y) = appendRows (fun x => past (ep x)) (fun x => new (en x)) y
  have y0 : (y 0).val < 1 := (y 0).isLt
  have y1 : (y 1).val < 1 := (y 1).isLt
  have y2 : (y 2).val < 4112 := (y 2).isLt
  have y3 : (y 3).val < 128 := (y 3).isLt
  obtain ⟨o0, o1, o2, o3⟩ := ho y
  by_cases hlt : (y 2).val < 4096
  · let x : (SPast 1 1).Idx := ix4 (⟨(y 0).val, y0⟩ : Fin 1) (⟨(y 1).val, y1⟩ : Fin 1) (⟨(y 2).val, hlt⟩ : Fin 4096)
      (⟨(y 3).val, y3⟩ : Fin 128)
    obtain ⟨p0, p1, p2, p3⟩ := hp x
    rw [appendRows_of_lt (fun x => past (ep x)) (fun x => new (en x)) y x rfl rfl rfl rfl]
    exact appendRows_of_lt past new (eo y) (ep x) (p0.trans o0.symm) (p1.trans o1.symm) (p2.trans o2.symm)
      (p3.trans o3.symm)
  · let x : (SNew 1 1).Idx := ix4 (⟨(y 0).val, y0⟩ : Fin 1) (⟨(y 1).val, y1⟩ : Fin 1)
      (⟨(y 2).val - 4096, by omega⟩ : Fin 16) (⟨(y 3).val, y3⟩ : Fin 128)
    obtain ⟨n0, n1, n2, n3⟩ := hn x
    have x2 : (x 2).val = (y 2).val - 4096 := rfl
    rw [appendRows_of_ge (fun x => past (ep x)) (fun x => new (en x)) y x rfl rfl (by rw [x2]; omega) rfl]
    exact appendRows_of_ge past new (eo y) (en x) (n0.trans o0.symm) (n1.trans o1.symm) (by rw [n2, o2, x2]; omega)
      (n3.trans o3.symm)

end Cert.Append

end
-- ==== Proof.HeadBlock.lean ====
/-
  What one grid point leaves in each output block.

  A grid point `(b, h)` holds one head: the cache's block [1, 1, 4096, 128], the new rows' block [1, 1, 16, 128]
  and an output block [1, 1, 4112, 128]. The body stores the cache's block at rows 0 … 4095 of the output block and
  the new rows' block at rows 4096 … 4111; the two stores cover the block and do not overlap. So the block ends as
  the cache's block followed by the new rows' block — `appendRows` at batch and head extent one —, the key block
  from the key operands and the value block from the value operands. (The body's loads of the output blocks are
  never used.)
-/
import proofs.«134010_j61151744361024_1_alg».proof.Proof.Gen.KernelIdeal.Frame
import proofs.«134010_j61151744361024_1_alg».proof.Proof.Append

set_option maxRecDepth 16384

noncomputable section

namespace Cert.KernelIdeal.HeadBlock

open Cert.KernelIdeal Cert.KernelIdeal.Gen Idealize.ShloMosaic Idealize.ShloMosaic.TcCoe Idealize.SL.Sem
open Idealize.ShloMosaic.ValueIdx Cert.Append

/-- The four zero offsets, as the constant function. -/
theorem zeros4 : (![0, 0, 0, 0] : Fin 4 → Nat) = fun _ => 0 := funext fun a => by fin_cases a <;> rfl

/-- Row 4096 is where the later store starts. -/
theorem off_new_rows : (![0, 0, 4096, 0] : Fin 4 → Nat) 2 = 4096 := rfl

section Canon

variable {Val : EltTy → Type} [∀ e, Nonempty (Val e)] {e : EltTy}

/-- Of two stores, an element of the EARLIER store's rectangle that the later store's rectangle does not hold keeps
    the earlier store's payload. -/
theorem canon_pair_earlier {s : Shape} (r1 r0 : Rect s) (w1 : r1.shape.Idx → Val e) (w0 : r0.shape.Idx → Val e)
    (x : r0.shape.Idx) (h : r0.emb x ∉ r1.set) :
    View.canon [(⟨r1, w1⟩ : View.Piece Val s e), ⟨r0, w0⟩] (r0.emb x) = w0 x := by
  rw [View.canon_cons_of_not_mem (⟨r1, w1⟩ : View.Piece Val s e) [⟨r0, w0⟩] h]
  exact View.canon_cons_emb r0 w0 [] x

/-- Of two stores, an element of the LATER store's rectangle holds the later store's payload. -/
theorem canon_pair_later {s : Shape} (r1 r0 : Rect s) (w1 : r1.shape.Idx → Val e) (w0 : r0.shape.Idx → Val e)
    (x : r1.shape.Idx) :
    View.canon [(⟨r1, w1⟩ : View.Piece Val s e), ⟨r0, w0⟩] (r1.emb x) = w1 x :=
  View.canon_cons_emb r1 w1 _ x

/-- Two stores into a [1, 1, 4112, 128] block — first `w0` at rows 0 … 4095, then `w1` at rows 4096 … 4111 — leave
    `w0` followed by `w1`: a row below 4096 is outside the later store's rectangle and inside the earlier one's at
    the same coordinates; a row from 4096 on is inside the later store's rectangle, 4096 rows down. -/
theorem canon_rows
    (inb1 : ∀ a, (![0, 0, 4096, 0] : Fin 4 → Nat) a + (![1, 1, 16, 128] : Fin 4 → Nat) a ≤ (SAll 1 1).size a)
    (inb0 : ∀ a, (![0, 0, 0, 0] : Fin 4 → Nat) a + (![1, 1, 4096, 128] : Fin 4 → Nat) a ≤ (SAll 1 1).size a)
    (w1 : (SNew 1 1).Idx → Val e) (w0 : (SPast 1 1).Idx → Val e) :
    View.canon [(⟨Rect.unit (s := SAll 1 1) ![0, 0, 4096, 0] ![1, 1, 16, 128] inb1, w1⟩ : View.Piece Val (SAll 1 1) e),
      ⟨Rect.unit (s := SAll 1 1) ![0, 0, 0, 0] ![1, 1, 4096, 128] inb0, w0⟩] = appendRows w0 w1 := by
  funext y
  have y0 : (y 0).val < 1 := (y 0).isLt
  have y1 : (y 1).val < 1 := (y 1).isLt
  have y2 : (y 2).val < 4112 := (y 2).isLt
  have y3 : (y 3).val < 128 := (y 3).isLt
  by_cases h : (y 2).val < 4096
  · -- a row of the cache: the later store does not reach it
    let x : (SPast 1 1).Idx := ix4 (⟨(y 0).val, y0⟩ : Fin 1) (⟨(y 1).val, y1⟩ : Fin 1) (⟨(y 2).val, h⟩ : Fin 4096)
      (⟨(y 3).val, y3⟩ : Fin 128)
    have hy : (Rect.unit (s := SAll 1 1) ![0, 0, 0, 0] ![1, 1, 4096, 128] inb0).emb x = y := by
      funext a; apply Fin.ext
      match a with
      | ⟨0, _⟩ => show 0 + 1 * (y 0).val = (y 0).val; omega
      | ⟨1, _⟩ => show 0 + 1 * (y 1).val = (y 1).val; omega
      | ⟨2, _⟩ => show 0 + 1 * (y 2).val = (y 2).val; omega
      | ⟨3, _⟩ => show 0 + 1 * (y 3).val = (y 3).val; omega
    have hnm : (Rect.unit (s := SAll 1 1) ![0, 0, 0, 0] ![1, 1, 4096, 128] inb0).emb x
        ∉ (Rect.unit (s := SAll 1 1) ![0, 0, 4096, 0] ![1, 1, 16, 128] inb1).set := by
      rw [hy, Rect.mem_set_unit]
      intro hh
      have h2 := (hh (2 : Fin 4)).1
      rw [off_new_rows] at h2
      omega
    rw [appendRows_of_lt w0 w1 y x rfl rfl rfl rfl]
    exact (congrArg _ hy.symm).trans
      (canon_pair_earlier (Rect.unit (s := SAll 1 1) ![0, 0, 4096, 0] ![1, 1, 16, 128] inb1)
        (Rect.unit (s := SAll 1 1) ![0, 0, 0, 0] ![1, 1, 4096, 128] inb0) w1 w0 x hnm)
  · -- a new row: under the later store, 4096 rows down
    let x : (SNew 1 1).Idx := ix4 (⟨(y 0).val, y0⟩ : Fin 1) (⟨(y 1).val, y1⟩ : Fin 1)
      (⟨(y 2).val - 4096, by omega⟩ : Fin 16) (⟨(y 3).val, y3⟩ : Fin 128)
    have hy : (Rect.unit (s := SAll 1 1) ![0, 0, 4096, 0] ![1, 1, 16, 128] inb1).emb x = y := by
      funext a; apply Fin.ext
      match a with
      | ⟨0, _⟩ => show 0 + 1 * (y 0).val = (y 0).val; omega
      | ⟨1, _⟩ => show 0 + 1 * (y 1).val = (y 1).val; omega
      | ⟨2, _⟩ =>
        show (![0, 0, 4096, 0] : Fin 4 → Nat) 2 + 1 * ((y 2).val - 4096) = (y 2).val
        rw [off_new_rows]; omega
      | ⟨3, _⟩ => show 0 + 1 * (y 3).val = (y 3).val; omega
    rw [appendRows_of_ge w0 w1 y x rfl rfl (by show (y 2).val - 4096 + 4096 = (y 2).val; omega) rfl]
    exact (congrArg _ hy.symm).trans
      (canon_pair_later (Rect.unit (s := SAll 1 1) ![0, 0, 4096, 0] ![1, 1, 16, 128] inb1)
        (Rect.unit (s := SAll 1 1) ![0, 0, 0, 0] ![1, 1, 4096, 128] inb0) w1 w0 x)

end Canon

variable {F : FTy → Type} [FloatOps F]

/-- The key output block after the body, on any staging buffers: the cache's key block followed by the new key
    rows' block. -/
theorem out_keys (c : Dev nD) (i : grid0.Coords) (arg2 : Memref sig .tc .vmem S1x1x4096x128 .f32) (harg2 : arg2.IsWhole) (arg3 : Memref sig .tc .vmem S1x1x16x128 .f32) (harg3 : arg3.IsWhole) (arg4 : Memref sig .tc .vmem S1x1x4096x128 .f32) (harg4 : arg4.IsWhole) (arg5 : Memref sig .tc .vmem S1x1x16x128 .f32) (harg5 : arg5.IsWhole) (arg6 : Memref sig .tc .vmem S1x1x4112x128 .f32) (harg6 : arg6.IsWhole) (arg7 : Memref sig .tc .vmem S1x1x4112x128 .f32) (harg7 : arg7.IsWhole)
    (x0 : Vec F S1x1x4096x128 .f32) (x1 : Vec F S1x1x16x128 .f32) (x2 : Vec F S1x1x4096x128 .f32) (x3 : Vec F S1x1x16x128 .f32) :
    out0_A_4 c i arg2 harg2 arg3 harg3 arg4 harg4 arg5 harg5 arg6 harg6 arg7 harg7 x0 x1 x2 x3 = appendRows x0 x1 := by
  unfold out0_A_4
  rw [View.read_writes_eq_canon _ _ _ (cover0_A_4 c i arg2 harg2 arg3 harg3 arg4 harg4 arg5 harg5 arg6 harg6 arg7 harg7 x0 x1 x2 x3)]
  unfold kernelRun0_A
  dsimp only
  simp only [View.readAt_eq_ld, harg2.read_unread, harg3.read_unread, View.ld_unit_zero (S := S1x1x4096x128) zeros4,
    View.ld_unit_zero (S := S1x1x16x128) zeros4]
  exact canon_rows _ _ x1 x0

/-- The value output block after the body, on any staging buffers: the cache's value block followed by the new value
    rows' block. -/
theorem out_values (c : Dev nD) (i : grid0.Coords) (arg2 : Memref sig .tc .vmem S1x1x4096x128 .f32) (harg2 : arg2.IsWhole) (arg3 : Memref sig .tc .vmem S1x1x16x128 .f32) (harg3 : arg3.IsWhole) (arg4 : Memref sig .tc .vmem S1x1x4096x128 .f32) (harg4 : arg4.IsWhole) (arg5 : Memref sig .tc .vmem S1x1x16x128 .f32) (harg5 : arg5.IsWhole) (arg6 : Memref sig .tc .vmem S1x1x4112x128 .f32) (harg6 : arg6.IsWhole) (arg7 : Memref sig .tc .vmem S1x1x4112x128 .f32) (harg7 : arg7.IsWhole)
    (x0 : Vec F S1x1x4096x128 .f32) (x1 : Vec F S1x1x16x128 .f32) (x2 : Vec F S1x1x4096x128 .f32) (x3 : Vec F S1x1x16x128 .f32) :
    out0_A_5 c i arg2 harg2 arg3 harg3 arg4 harg4 arg5 harg5 arg6 harg6 arg7 harg7 x0 x1 x2 x3 = appendRows x2 x3 := by
  unfold out0_A_5
  rw [View.read_writes_eq_canon _ _ _ (cover0_A_5 c i arg2 harg2 arg3 harg3 arg4 harg4 arg5 harg5 arg6 harg6 arg7 harg7 x0 x1 x2 x3)]
  unfold kernelRun0_A
  dsimp only
  simp only [View.readAt_eq_ld, harg4.read_unread, harg5.read_unread, View.ld_unit_zero (S := S1x1x4096x128) zeros4,
    View.ld_unit_zero (S := S1x1x16x128) zeros4]
  exact canon_rows _ _ x3 x2

end Cert.KernelIdeal.HeadBlock

end
-- ==== Proof.KernelArrays.lean ====
/-
  From one head's block to the whole arrays: what the kernel's run leaves in its two result arrays.

  The grid has one point per (batch, head) pair. Every window's index map sends the point (b, h) to the block
  index (b, h, 0, 0): the cache's block, the new rows' block and the output block at a point are the SAME head of
  their arrays. So what a point writes back — its cache block followed by its new rows' block — is that head of
  the cache array followed by the new rows' array; the points' output blocks cover the result array (the block
  holding an index is the one at its batch and head coordinates); hence each result array ends as the cache
  followed by the new rows, the keys from the key arguments and the values from the value arguments.
-/
import proofs.«134010_j61151744361024_1_alg».proof.Proof.Gen.KernelIdeal.Value
import proofs.«134010_j61151744361024_1_alg».proof.Proof.HeadBlock

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.Pipeline (Dat)
open Idealize.ShloMosaic.ValueIdx Cert.Append Cert.KernelIdeal.HeadBlock

variable {F : FTy → Type} [FloatOps F]
variable (m : (ℓ : Loc nD τ sig) → Buf (Elt F) ℓ) (ρ : Dev nD → PrngReg)

/-! ## The index maps, decided over the 128 grid points

Each window's block index at a point agrees with the key output's on the batch and head axes and is zero on the
row and lane axes. -/

theorem idx_facts0 : ∀ t : Fin cfg0.N, win0_0.index t (0 : Fin 4) = win0_4.index t (0 : Fin 4)
    ∧ win0_0.index t (1 : Fin 4) = win0_4.index t (1 : Fin 4)
    ∧ win0_0.index t (2 : Fin 4) = 0 ∧ win0_0.index t (3 : Fin 4) = 0 :=
  (by decide +kernel : ∀ t : Fin grid0.N, _)

theorem idx_facts1 : ∀ t : Fin cfg0.N, win0_1.index t (0 : Fin 4) = win0_4.index t (0 : Fin 4)
    ∧ win0_1.index t (1 : Fin 4) = win0_4.index t (1 : Fin 4)
    ∧ win0_1.index t (2 : Fin 4) = 0 ∧ win0_1.index t (3 : Fin 4) = 0 :=
  (by decide +kernel : ∀ t : Fin grid0.N, _)

theorem idx_facts2 : ∀ t : Fin cfg0.N, win0_2.index t (0 : Fin 4) = win0_4.index t (0 : Fin 4)
    ∧ win0_2.index t (1 : Fin 4) = win0_4.index t (1 : Fin 4)
    ∧ win0_2.index t (2 : Fin 4) = 0 ∧ win0_2.index t (3 : Fin 4) = 0 :=
  (by decide +kernel : ∀ t : Fin grid0.N, _)

theorem idx_facts3 : ∀ t : Fin cfg0.N, win0_3.index t (0 : Fin 4) = win0_4.index t (0 : Fin 4)
    ∧ win0_3.index t (1 : Fin 4) = win0_4.index t (1 : Fin 4)
    ∧ win0_3.index t (2 : Fin 4) = 0 ∧ win0_3.index t (3 : Fin 4) = 0 :=
  (by decide +kernel : ∀ t : Fin grid0.N, _)

theorem idx_facts4 : ∀ t : Fin cfg0.N, win0_4.index t (0 : Fin 4) = win0_4.index t (0 : Fin 4)
    ∧ win0_4.index t (1 : Fin 4) = win0_4.index t (1 : Fin 4)
    ∧ win0_4.index t (2 : Fin 4) = 0 ∧ win0_4.index t (3 : Fin 4) = 0 :=
  (by decide +kernel : ∀ t : Fin grid0.N, _)

theorem idx_facts5 : ∀ t : Fin cfg0.N, win0_5.index t (0 : Fin 4) = win0_4.index t (0 : Fin 4)
    ∧ win0_5.index t (1 : Fin 4) = win0_4.index t (1 : Fin 4)
    ∧ win0_5.index t (2 : Fin 4) = 0 ∧ win0_5.index t (3 : Fin 4) = 0 :=
  (by decide +kernel : ∀ t : Fin grid0.N, _)

/-- Every (batch, head) pair is some point's block index. -/
theorem idx_onto : ∀ (b : Fin 4) (h : Fin 32), ∃ t : Fin cfg0.N,
    win0_4.index t (0 : Fin 4) = b.val ∧ win0_4.index t (1 : Fin 4) = h.val :=
  (by decide +kernel : ∀ (b : Fin 4) (h : Fin 32), ∃ t : Fin grid0.N,
    win0_4.index t (0 : Fin 4) = b.val ∧ win0_4.index t (1 : Fin 4) = h.val)

/-! ## Where a block's element sits in its array

At batch and head the point's, at the row and lane its own. -/

/-- The cache's key block. -/
theorem emb_past_keys (t : Fin cfg0.N) (x : (SPast 1 1).Idx) :
    (((cfg0.win 0).blk t).view.emb x 0).val = win0_4.index t (0 : Fin 4)
    ∧ (((cfg0.win 0).blk t).view.emb x 1).val = win0_4.index t (1 : Fin 4)
    ∧ (((cfg0.win 0).blk t).view.emb x 2).val = (x 2).val
    ∧ (((cfg0.win 0).blk t).view.emb x 3).val = (x 3).val := by
  obtain ⟨e0, e1, e2, e3⟩ := idx_facts0 t
  have x0 : (x 0).val < 1 := (x 0).isLt
  have x1 : (x 1).val < 1 := (x 1).isLt
  have r0 : ((win0_0.rect t).emb x (0 : Fin 4) : Nat) = win0_0.index t (0 : Fin 4) * 1 + (x 0).val :=
    win0_0.rect_emb_val t x (0 : Fin 4)
  have r1 : ((win0_0.rect t).emb x (1 : Fin 4) : Nat) = win0_0.index t (1 : Fin 4) * 1 + (x 1).val :=
    win0_0.rect_emb_val t x (1 : Fin 4)
  refine ⟨?_, ?_, win0_0.rect_emb_val_of_index_zero t (2 : Fin 4) e2 x,
    win0_0.rect_emb_val_of_index_zero t (3 : Fin 4) e3 x⟩
  · exact r0.trans (by omega)
  · exact r1.trans (by omega)

/-- The new key rows' block. -/
theorem emb_new_keys (t : Fin cfg0.N) (x : (SNew 1 1).Idx) :
    (((cfg0.win 1).blk t).view.emb x 0).val = win0_4.index t (0 : Fin 4)
    ∧ (((cfg0.win 1).blk t).view.emb x 1).val = win0_4.index t (1 : Fin 4)
    ∧ (((cfg0.win 1).blk t).view.emb x 2).val = (x 2).val
    ∧ (((cfg0.win 1).blk t).view.emb x 3).val = (x 3).val := by
  obtain ⟨e0, e1, e2, e3⟩ := idx_facts1 t
  have x0 : (x 0).val < 1 := (x 0).isLt
  have x1 : (x 1).val < 1 := (x 1).isLt
  have r0 : ((win0_1.rect t).emb x (0 : Fin 4) : Nat) = win0_1.index t (0 : Fin 4) * 1 + (x 0).val :=
    win0_1.rect_emb_val t x (0 : Fin 4)
  have r1 : ((win0_1.rect t).emb x (1 : Fin 4) : Nat) = win0_1.index t (1 : Fin 4) * 1 + (x 1).val :=
    win0_1.rect_emb_val t x (1 : Fin 4)
  refine ⟨?_, ?_, win0_1.rect_emb_val_of_index_zero t (2 : Fin 4) e2 x,
    win0_1.rect_emb_val_of_index_zero t (3 : Fin 4) e3 x⟩
  · exact r0.trans (by omega)
  · exact r1.trans (by omega)

/-- The cache's value block. -/
theorem emb_past_values (t : Fin cfg0.N) (x : (SPast 1 1).Idx) :
    (((cfg0.win 2).blk t).view.emb x 0).val = win0_4.index t (0 : Fin 4)
    ∧ (((cfg0.win 2).blk t).view.emb x 1).val = win0_4.index t (1 : Fin 4)
    ∧ (((cfg0.win 2).blk t).view.emb x 2).val = (x 2).val
    ∧ (((cfg0.win 2).blk t).view.emb x 3).val = (x 3).val := by
  obtain ⟨e0, e1, e2, e3⟩ := idx_facts2 t
  have x0 : (x 0).val < 1 := (x 0).isLt
  have x1 : (x 1).val < 1 := (x 1).isLt
  have r0 : ((win0_2.rect t).emb x (0 : Fin 4) : Nat) = win0_2.index t (0 : Fin 4) * 1 + (x 0).val :=
    win0_2.rect_emb_val t x (0 : Fin 4)
  have r1 : ((win0_2.rect t).emb x (1 : Fin 4) : Nat) = win0_2.index t (1 : Fin 4) * 1 + (x 1).val :=
    win0_2.rect_emb_val t x (1 : Fin 4)
  refine ⟨?_, ?_, win0_2.rect_emb_val_of_index_zero t (2 : Fin 4) e2 x,
    win0_2.rect_emb_val_of_index_zero t (3 : Fin 4) e3 x⟩
  · exact r0.trans (by omega)
  · exact r1.trans (by omega)

/-- The new value rows' block. -/
theorem emb_new_values (t : Fin cfg0.N) (x : (SNew 1 1).Idx) :
    (((cfg0.win 3).blk t).view.emb x 0).val = win0_4.index t (0 : Fin 4)
    ∧ (((cfg0.win 3).blk t).view.emb x 1).val = win0_4.index t (1 : Fin 4)
    ∧ (((cfg0.win 3).blk t).view.emb x 2).val = (x 2).val
    ∧ (((cfg0.win 3).blk t).view.emb x 3).val = (x 3).val := by
  obtain ⟨e0, e1, e2, e3⟩ := idx_facts3 t
  have x0 : (x 0).val < 1 := (x 0).isLt
  have x1 : (x 1).val < 1 := (x 1).isLt
  have r0 : ((win0_3.rect t).emb x (0 : Fin 4) : Nat) = win0_3.index t (0 : Fin 4) * 1 + (x 0).val :=
    win0_3.rect_emb_val t x (0 : Fin 4)
  have r1 : ((win0_3.rect t).emb x (1 : Fin 4) : Nat) = win0_3.index t (1 : Fin 4) * 1 + (x 1).val :=
    win0_3.rect_emb_val t x (1 : Fin 4)
  refine ⟨?_, ?_, win0_3.rect_emb_val_of_index_zero t (2 : Fin 4) e2 x,
    win0_3.rect_emb_val_of_index_zero t (3 : Fin 4) e3 x⟩
  · exact r0.trans (by omega)
  · exact r1.trans (by omega)

/-- The key output block. -/
theorem emb_out_keys (t : Fin cfg0.N) (x : (SAll 1 1).Idx) :
    (((cfg0.win 4).blk t).view.emb x 0).val = win0_4.index t (0 : Fin 4)
    ∧ (((cfg0.win 4).blk t).view.emb x 1).val = win0_4.index t (1 : Fin 4)
    ∧ (((cfg0.win 4).blk t).view.emb x 2).val = (x 2).val
    ∧ (((cfg0.win 4).blk t).view.emb x 3).val = (x 3).val := by
  obtain ⟨e0, e1, e2, e3⟩ := idx_facts4 t
  have x0 : (x 0).val < 1 := (x 0).isLt
  have x1 : (x 1).val < 1 := (x 1).isLt
  have r0 : ((win0_4.rect t).emb x (0 : Fin 4) : Nat) = win0_4.index t (0 : Fin 4) * 1 + (x 0).val :=
    win0_4.rect_emb_val t x (0 : Fin 4)
  have r1 : ((win0_4.rect t).emb x (1 : Fin 4) : Nat) = win0_4.index t (1 : Fin 4) * 1 + (x 1).val :=
    win0_4.rect_emb_val t x (1 : Fin 4)
  refine ⟨?_, ?_, win0_4.rect_emb_val_of_index_zero t (2 : Fin 4) e2 x,
    win0_4.rect_emb_val_of_index_zero t (3 : Fin 4) e3 x⟩
  · exact r0.trans (by omega)
  · exact r1.trans (by omega)

/-- The value output block. -/
theorem emb_out_values (t : Fin cfg0.N) (x : (SAll 1 1).Idx) :
    (((cfg0.win 5).blk t).view.emb x 0).val = win0_4.index t (0 : Fin 4)
    ∧ (((cfg0.win 5).blk t).view.emb x 1).val = win0_4.index t (1 : Fin 4)
    ∧ (((cfg0.win 5).blk t).view.emb x 2).val = (x 2).val
    ∧ (((cfg0.win 5).blk t).view.emb x 3).val = (x 3).val := by
  obtain ⟨e0, e1, e2, e3⟩ := idx_facts5 t
  have x0 : (x 0).val < 1 := (x 0).isLt
  have x1 : (x 1).val < 1 := (x 1).isLt
  have r0 : ((win0_5.rect t).emb x (0 : Fin 4) : Nat) = win0_5.index t (0 : Fin 4) * 1 + (x 0).val :=
    win0_5.rect_emb_val t x (0 : Fin 4)
  have r1 : ((win0_5.rect t).emb x (1 : Fin 4) : Nat) = win0_5.index t (1 : Fin 4) * 1 + (x 1).val :=
    win0_5.rect_emb_val t x (1 : Fin 4)
  refine ⟨?_, ?_, win0_5.rect_emb_val_of_index_zero t (2 : Fin 4) e2 x,
    win0_5.rect_emb_val_of_index_zero t (3 : Fin 4) e3 x⟩
  · exact r0.trans (by omega)
  · exact r1.trans (by omega)

/-! ## What a point writes back -/

/-- The key block point `t` writes back is block `t` of the key cache followed by the new key rows. -/
theorem flushed_keys (c : Dev nD) (t : Fin cfg0.N) :
    (dats m 0 c).flushed 4 t
      = ((cfg0.win 4).blk t).view.read (Elt F) (appendRows (V m c main_arg0) (V m c main_arg2)) := by
  rw [Value.flushed4_A, out_keys]
  exact (appendRows_head (V m c main_arg0) (V m c main_arg2) (win0_4.index t (0 : Fin 4)) (win0_4.index t (1 : Fin 4))
    (fun x => ((cfg0.win 0).blk t).view.emb x) (fun x => ((cfg0.win 1).blk t).view.emb x)
    (fun y => ((cfg0.win 4).blk t).view.emb y) (emb_past_keys t) (emb_new_keys t) (emb_out_keys t)).symm

/-- The value block point `t` writes back is block `t` of the value cache followed by the new value rows. -/
theorem flushed_values (c : Dev nD) (t : Fin cfg0.N) :
    (dats m 0 c).flushed 5 t
      = ((cfg0.win 5).blk t).view.read (Elt F) (appendRows (V m c main_arg1) (V m c main_arg3)) := by
  rw [Value.flushed5_A, out_values]
  exact (appendRows_head (V m c main_arg1) (V m c main_arg3) (win0_4.index t (0 : Fin 4)) (win0_4.index t (1 : Fin 4))
    (fun x => ((cfg0.win 2).blk t).view.emb x) (fun x => ((cfg0.win 3).blk t).view.emb x)
    (fun y => ((cfg0.win 5).blk t).view.emb y) (emb_past_values t) (emb_new_values t) (emb_out_values t)).symm

/-! ## The blocks cover the result arrays -/

/-- An index of the key result array is in the block of the point at its batch and head. -/
theorem cover_keys (i : S4x32x4112x128.Idx) :
    ∃ t : Fin cfg0.N, (cfg0.win 4).flush t = true ∧ i ∈ ((cfg0.win 4).blk t).view.set := by
  have i0 : (i 0).val < 4 := (i 0).isLt
  have i1 : (i 1).val < 32 := (i 1).isLt
  have i2 : (i 2).val < 4112 := (i 2).isLt
  have i3 : (i 3).val < 128 := (i 3).isLt
  obtain ⟨t, hb, hh⟩ := idx_onto ⟨(i 0).val, i0⟩ ⟨(i 1).val, i1⟩
  refine ⟨t, flush0_4 t, ?_⟩
  let y : (SAll 1 1).Idx := ix4 (⟨0, Nat.one_pos⟩ : Fin 1) (⟨0, Nat.one_pos⟩ : Fin 1) (⟨(i 2).val, i2⟩ : Fin 4112)
    (⟨(i 3).val, i3⟩ : Fin 128)
  obtain ⟨o0, o1, o2, o3⟩ := emb_out_keys t y
  have hy : ((cfg0.win 4).blk t).view.emb y = i := by
    funext a; apply Fin.ext
    match a with
    | ⟨0, _⟩ => exact o0.trans hb
    | ⟨1, _⟩ => exact o1.trans hh
    | ⟨2, _⟩ => exact o2
    | ⟨3, _⟩ => exact o3
  exact hy ▸ ((cfg0.win 4).blk t).view.emb_mem_set y

/-- An index of the value result array is in the block of the point at its batch and head. -/
theorem cover_values (i : S4x32x4112x128.Idx) :
    ∃ t : Fin cfg0.N, (cfg0.win 5).flush t = true ∧ i ∈ ((cfg0.win 5).blk t).view.set := by
  have i0 : (i 0).val < 4 := (i 0).isLt
  have i1 : (i 1).val < 32 := (i 1).isLt
  have i2 : (i 2).val < 4112 := (i 2).isLt
  have i3 : (i 3).val < 128 := (i 3).isLt
  obtain ⟨t, hb, hh⟩ := idx_onto ⟨(i 0).val, i0⟩ ⟨(i 1).val, i1⟩
  refine ⟨t, flush0_5 t, ?_⟩
  let y : (SAll 1 1).Idx := ix4 (⟨0, Nat.one_pos⟩ : Fin 1) (⟨0, Nat.one_pos⟩ : Fin 1) (⟨(i 2).val, i2⟩ : Fin 4112)
    (⟨(i 3).val, i3⟩ : Fin 128)
  obtain ⟨o0, o1, o2, o3⟩ := emb_out_values t y
  have hy : ((cfg0.win 5).blk t).view.emb y = i := by
    funext a; apply Fin.ext
    match a with
    | ⟨0, _⟩ => exact o0.trans hb
    | ⟨1, _⟩ => exact o1.trans hh
    | ⟨2, _⟩ => exact o2
    | ⟨3, _⟩ => exact o3
  exact hy ▸ ((cfg0.win 5).blk t).view.emb_mem_set y

/-! ## The result arrays, and the run -/

/-- After the run the key result array is the key cache followed by the new key rows. -/
theorem final_keys (c : Dev nD) :
    (dats m 0 c).arrAt 4 cfg0.N
      = appendRows (m ((c : Thread nD τ).loc main_arg0)) (m ((c : Thread nD τ).loc main_arg2)) :=
  (dats m 0 c).arrAt_eq_of_cover 4 (appendRows (V m c main_arg0) (V m c main_arg2))
    (fun t _ => flushed_keys m c t) cover_keys

/-- After the run the value result array is the value cache followed by the new value rows. -/
theorem final_values (c : Dev nD) :
    (dats m 0 c).arrAt 5 cfg0.N
      = appendRows (m ((c : Thread nD τ).loc main_arg1)) (m ((c : Thread nD τ).loc main_arg3)) :=
  (dats m 0 c).arrAt_eq_of_cover 5 (appendRows (V m c main_arg1) (V m c main_arg3))
    (fun t _ => flushed_values m c t) cover_values

/-- The kernel's run: every weakly fair execution terminates with the two result arrays at the caches followed by
    the new rows, and the arguments unchanged. -/
theorem run : θ_run defs (onTc (τ := τ) (main (F := F))) ⟨m, fun _ => 0, ρ⟩ fun r => ∀ c : Dev nD,
      r.2.mem ((c : Thread nD τ).loc main_v0_0)
        = appendRows (m ((c : Thread nD τ).loc main_arg0)) (m ((c : Thread nD τ).loc main_arg2))
      ∧ r.2.mem ((c : Thread nD τ).loc main_v0_1)
        = appendRows (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_keys m c), (h c).2.1.trans (final_values m c), (h c).2.2⟩)
    (Value.run_blocks m ρ)

end Cert.KernelIdeal.Arrays

end
-- ==== Proof.ReferenceArrays.lean ====
/-
  The reference's two results as the caches followed by the new rows.

  The reference concatenates the key cache with the new key rows, and the value cache with the new value rows,
  along the sequence axis. Its run ends with each result at that concatenation of the arguments, and a two-piece
  concatenation along axis 2 is `appendRows` (at 4 batches of 32 heads).
-/
import proofs.«134010_j61151744361024_1_alg».proof.Proof.Gen.ReferenceIdeal.Run
import proofs.«134010_j61151744361024_1_alg».proof.Proof.Append

noncomputable section

namespace Cert.ReferenceIdeal.Arrays

open Cert.ReferenceIdeal Cert.ReferenceIdeal.Gen Idealize.ShloMosaic Idealize.ShloMosaic.TcCoe Idealize.SL.Sem
open Cert.Append

variable {F : FTy → Type} [FloatOps F]

/-- The reference's run: every weakly fair execution terminates with the two results at the caches followed by the
    new rows, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
        = appendRows (B := 4) (H := 32) (m ((c.tc : Thread nD τ).loc main_arg0)) (m ((c.tc : Thread nD τ).loc main_arg2))
      ∧ r.2.mem ((c.tc : Thread nD τ).loc main_v1)
        = appendRows (B := 4) (H := 32) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c).1.trans (concatenate_eq_appendRows (B := 4) (H := 32) _ _ _),
        (h c).2.1.trans (concatenate_eq_appendRows (B := 4) (H := 32) _ _ _), (h c).2.2⟩)
    (Value.run (F := F) m ρ)

end Cert.ReferenceIdeal.Arrays

end
-- ==== Proof.lean ====
/-
  Appending new tokens to a key/value cache: the kernel against the concatenating reference.

  Arguments: the key cache and the value cache, each [4, 32, 4096, 128] (batch, head, row, lane), and the new key
  rows and new value rows, each [4, 32, 16, 128]. Results: two arrays [4, 32, 4112, 128].

  The kernel runs over a grid of one point per (batch, head) pair. At a point it holds that head's cache block,
  that head's new rows and one output block per result, and stores the cache block at rows 0 … 4095 and the new
  rows at rows 4096 … 4111 of the output block. The reference concatenates cache and new rows along the row axis.
  Both results are therefore ONE function of the arguments, `Cert.Append.appendRows`: at an index whose row is below
  4096 the cache at that index, otherwise the new rows at the index 4096 rows down.

    * Proof/Append.lean — that function, how it reads at a row of either kind, that one head of it is the append of
      that head's blocks, and that the two-piece concatenation along the row axis is it;
    * Proof/HeadBlock.lean — the two stores of a grid point leave the head's cache block followed by its new rows;
    * Proof/KernelArrays.lean — every window's block at the point (b, h) is head (b, h) of its array, the output
      blocks cover the result arrays, so the kernel's run ends with both results at `appendRows` of the arguments;
    * Proof/ReferenceArrays.lean — the reference's run ends with both results at `appendRows` of the arguments.

  No arithmetic is done on the values, so no law of the extended reals is needed and the finiteness of the inputs
  is never used: the two programs agree at every input. The kernel read over the extended reals is the kernel's own
  text, no operation rewritten, so there is nothing to preserve beyond it.
-/
import proofs.«134010_j61151744361024_1_alg».proof.Defs
import proofs.«134010_j61151744361024_1_alg».proof.Proof.Gen.Kernel
import proofs.«134010_j61151744361024_1_alg».proof.Proof.Gen.Kernel.Frame
import proofs.«134010_j61151744361024_1_alg».proof.Proof.Gen.KernelIdeal
import proofs.«134010_j61151744361024_1_alg».proof.Proof.Gen.KernelIdeal.Frame
import proofs.«134010_j61151744361024_1_alg».proof.Proof.Gen.KernelIdeal.Value
import proofs.«134010_j61151744361024_1_alg».proof.Proof.Gen.ReferenceIdeal
import proofs.«134010_j61151744361024_1_alg».proof.Proof.Gen.ReferenceIdeal.Run
import proofs.«134010_j61151744361024_1_alg».proof.Proof.Gen.Pre_finite_inputs
import proofs.«134010_j61151744361024_1_alg».proof.Proof.Append
import proofs.«134010_j61151744361024_1_alg».proof.Proof.HeadBlock
import proofs.«134010_j61151744361024_1_alg».proof.Proof.KernelArrays
import proofs.«134010_j61151744361024_1_alg».proof.Proof.ReferenceArrays
import Idealize.ShloMosaic.Adequacy
import Idealize.ShloMosaic.Init

noncomputable section

namespace Cert.Proof

open Idealize.ShloMosaic Idealize.ShloMosaic.TcCoe Idealize.SL.Sem Cert.Append

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the two results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealized kernel is the kernel's own text: no operation was rewritten. -/
theorem preserves : Cert.preserves_Kernel_KernelIdeal := trivial

/-- From memories that agree on the four arguments, both programs end with the key result at the key cache followed
    by the new key rows and the value result at the value cache followed by the new value rows. -/
theorem algebraic : Cert.algebraic_KernelIdeal_ReferenceIdeal := by
  intro m ρ m' ρ' _ hagree
  refine ⟨_, _, Cert.KernelIdeal.Arrays.run (F := Ideal) m ρ, ?_⟩
  refine (θ_run Cert.ReferenceIdeal.defs _ _).mono (fun _ h c => ⟨(h c).1.trans ?_, (h c).2.1.trans ?_, (h c).2.2⟩)
    (Cert.ReferenceIdeal.Arrays.run (F := Ideal) m' ρ')
  · rw [(hagree c).1, (hagree c).2.2.1]
  · rw [(hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
